-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x2048 .f32) (main_arg1 : FVec F S2048x2048 .f32) (main_arg2 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S2048x2048, .bf16⟩
  | .hbm, ⟨4, _⟩ => ⟨S1x2048, .f32⟩
  | .hbm, ⟨5, _⟩ => ⟨S16384x2048, .f32⟩
  | .local _ .vmem, ⟨0, _⟩ => ⟨S2048x2048, .f32⟩
  | .local _ .vmem, ⟨1, _⟩ => ⟨S2048x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg3_1 : Ref sig .tc := ⟨.vmem, 7, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem3_1 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  packedbf16_S2048x2048_S2048x2048_0_0 : (Rect.unit (s := S2048x2048) ![0, 0] S2048x2048.size inb_S2048x2048_S2048x2048_0_0).PackedRows (EltTy.packing .bf16)
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .f32 = 32 ∨ (Rect.block (s := S2048x2048) S2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S16384x2048.size a
  hwx1_3 : ∀ i : grid1.Coords, EltTy.bits .f32 = 32 ∨ (Rect.block (s := S16384x2048) S512x2048.size (cc1_transform_3 i) (hinb1_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S16384x2048, .f32⟩
  | .hbm, ⟨5, _⟩ => ⟨S16384x2048, .i1⟩
  | .hbm, ⟨6, _⟩ => ⟨S_, .f32⟩
  | .hbm, ⟨7, _⟩ => ⟨S_, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S2048x2048, .f32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_cst_3 : Ref sig .tc := ⟨.hbm, 14, rfl⟩
abbrev main_cst_4 : Ref sig .tc := ⟨.hbm, 15, rfl⟩
abbrev main_call1_v0 : Ref sig .tc := ⟨.hbm, 16, rfl⟩
abbrev main_call1_v1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]

class Facts₀ : Prop where
  bcast_S_S16384x2048 : S_.BroadcastsInDim S16384x2048 (![] : Fin 0 → Fin S16384x2048.rank)
  bcast_S_S2048x2048 : S_.BroadcastsInDim S2048x2048 (![] : Fin 0 → Fin S2048x2048.rank)
  transposes_S2048x2048_S2048x2048_1_0 : S2048x2048.Transposes [1, 0] S2048x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S16384x2048_S2048x2048_S16384x2048_1_0_0_1_n_n_wf : DotDims.WF S16384x2048 S2048x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.Spec.lean ====
/-
  The function both programs compute, stated once, entry by entry.

  Every entry of `x` and of `weight` is first replaced by `1` when it is positive and by `-1` otherwise
  (zero goes to `-1`). Entry `(r, n)` of the result is then the sum over `k` of the product of the
  replaced `x (r, k)` and the replaced `weight (n, k)`, plus `bias n`: row `r` of the replaced `x` against
  row `n` of the replaced `weight`, so the weight enters transposed.
-/
import Idealize.ShloMosaic.PureOps.Ideal
import Idealize.ShloMosaic.Lib.ValueIdx

noncomputable section

open scoped BigOperators

namespace Cert.Spec

open Idealize.ShloMosaic Idealize.ShloMosaic.ValueIdx

/-- The shapes of `x` (and of the result), of `weight` and of `bias`. -/
abbrev SX : Shape := ⟨2, ![16384, 2048]⟩
abbrev SW : Shape := ⟨2, ![2048, 2048]⟩
abbrev SB : Shape := ⟨1, ![2048]⟩

/-- One entry replaced by its sign with zero counted as negative: `1` if `0 < e`, else `-1`. It is spelt with the
    comparison and the selection both programs print, on the same three constants (`0`, `1`, `-1`), so neither
    constant is ever evaluated. -/
def pm (e : EReal) : EReal :=
  Scalar.select (FloatOps.cmpf (F := Ideal) (φ := .f32) .ogt e (FloatOps.ofBits (F := Ideal) .f32 0x00000000#32))
    (FloatOps.ofBits (F := Ideal) .f32 0x3F800000#32) (FloatOps.ofBits (F := Ideal) .f32 0xBF800000#32)

/-- The result: entry `(r, n)` is `∑ k, pm (x (r, k)) * pm (w (n, k)) + b n`. -/
def G (x : SX.Idx → EReal) (w : SW.Idx → EReal) (b : SB.Idx → EReal) : SX.Idx → EReal :=
  fun i => (∑ k : Fin 2048, pm (x (ix2 (i 0) k)) * pm (w (ix2 (i 1) k))) + b (ix1 (i 1))

/-- The same at explicit coordinates. -/
theorem G_ix2 (x : SX.Idx → EReal) (w : SW.Idx → EReal) (b : SB.Idx → EReal) (r : Fin 16384) (n : Fin 2048) :
    G x w b (ix2 r n) = (∑ k : Fin 2048, pm (x (ix2 r k)) * pm (w (ix2 n k))) + b (ix1 n) := rfl

/-- The weight with every entry replaced, as one whole array. -/
def signs (w : SW.Idx → EReal) : SW.Idx → EReal := fun i => pm (w i)

end Cert.Spec

end
-- ==== Proof.RefSide.lean ====
/-
  The reference program's result, read one entry at a time, is the function `Spec.G` of its three arguments.

  The reference replaces every entry of `x` and of `weight` by its sign (zero counted as negative), transposes the
  replaced weight, contracts axis 1 of the replaced `x` with axis 0 of the transposed weight, and adds the bias
  broadcast along the rows. Reading the transposed weight at `(k, n)` is reading the replaced weight at `(n, k)`,
  so entry `(r, n)` is the sum over `k` of `pm (x (r, k)) * pm (w (n, k))`, plus `b n`.
-/
import proofs.«154746_j19516331393234_2_alg».proof.Proof.Gen.ReferenceIdeal.Read
import proofs.«154746_j19516331393234_2_alg».proof.Proof.Spec
import Idealize.ShloMosaic.Lib.ValueIdx
import Idealize.ShloMosaic.Lib.Pipeline.Value
import Idealize.ShloMosaic.PureOps.Ideal.Laws

noncomputable section

open scoped BigOperators

namespace Cert.RefSide

open Idealize.ShloMosaic Idealize.ShloMosaic.ValueIdx
open Cert.ReferenceIdeal Cert.ReferenceIdeal.Read Cert.Spec

/-- The replaced `x` at an entry. -/
theorem sign_x (x : FVec Ideal S16384x2048 .f32) (i : S16384x2048.Idx) :
    val_main_v2 (F := Ideal) x i = pm (x i) := by
  rw [val_main_v2_apply, val_main_v1_apply, val_main_v0_apply, val_main_call0_v0_apply, val_main_call0_v1_apply,
    val_main_cst_apply, val_main_cst_0_apply, val_main_cst_1_apply]
  rfl

/-- The replaced weight at an entry. -/
theorem sign_w (w : FVec Ideal S2048x2048 .f32) (i : S2048x2048.Idx) :
    val_main_v5 (F := Ideal) w i = pm (w i) := by
  rw [val_main_v5_apply, val_main_v4_apply, val_main_v3_apply, val_main_call1_v0_apply, val_main_call1_v1_apply,
    val_main_cst_2_apply, val_main_cst_3_apply, val_main_cst_4_apply]
  rfl

/-- The left factor of the contraction at `k` sits at `(r, k)` of the replaced `x`. -/
theorem lidx_eq (i : S16384x2048.Idx) (k : Fin 2048) : lidx_main_v7 i k = ix2 (i 0) k :=
  funext fun a => Fin.ext (by match a with | ⟨0, _⟩ => rfl | ⟨1, _⟩ => rfl)

/-- The right factor at `k` sits at `(k, n)` of the transposed weight, which is `(n, k)` of the replaced weight. -/
theorem ridx_eq (i : S16384x2048.Idx) (k : Fin 2048) : idx_main_v6 (ridx_main_v7 i k) = ix2 (i 1) k :=
  funext fun a => Fin.ext (by match a with | ⟨0, _⟩ => rfl | ⟨1, _⟩ => rfl)

/-- The bias broadcast twice is read at the column. -/
theorem bidx_eq (i : S16384x2048.Idx) : idx_main_v8 (idx_main_v9 i) = ix1 (i 1) :=
  funext fun a => Fin.ext (by match a with | ⟨0, _⟩ => rfl)

/-- The reference's result is `G` of its arguments. -/
theorem ref_eq (x : FVec Ideal S16384x2048 .f32) (w : FVec Ideal S2048x2048 .f32) (b : FVec Ideal S2048 .f32) :
    val_main_v10 (F := Ideal) x w b = G x w b := by
  funext i
  rw [val_main_v10_apply, val_main_v7_apply, val_main_v9_apply, val_main_v8_apply, bidx_eq]
  show (∑ k : Fin 2048, _) + _ = (∑ k : Fin 2048, _) + _
  refine congrArg (· + b (ix1 (i 1))) (Finset.sum_congr rfl fun k _ => ?_)
  rw [sign_x, val_main_v6_apply, sign_w, lidx_eq, ridx_eq]
  rfl

end Cert.RefSide

end
-- ==== Proof.RunValue.lean ====
/-
  The idealized kernel's run with its result array named.

  The program is two kernel regions with one host operation between them. Its run ends with every buffer that
  outlives a region at the contents the last region leaves, and the result buffer is the second region's output
  array: after the run it holds what that region's write-backs, folded over the grid, leave in it. The
  arguments are written by nothing and end as launched.
-/
import proofs.«154746_j19516331393234_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at what the second
    region's write-backs leave in its output array, and the three arguments end as launched. -/
theorem run_out : θ_run defs (onTc (τ := τ) (main (F := F))) ⟨m, fun _ => 0, ρ⟩ (fun r => ∀ c : Dev nD,
      r.2.mem ((c.tc : Thread nD τ).loc main_v2) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.RunValue

end
-- ==== Proof.Region0.lean ====
/-
  The first region: the weight with every entry replaced by its sign.

  Its grid has one point and each of its two windows has one block, the whole [2048, 2048] array. The body loads the
  weight's block, replaces every entry by `1` if it is positive and by `-1` otherwise, and stores the result (the
  change of float format on the way is the identity on extended reals). So the one write-back covers the output
  array, which ends holding `Spec.signs` of the weight as launched.
-/
import proofs.«154746_j19516331393234_2_alg».proof.Proof.Gen.KernelIdeal.Frame
import proofs.«154746_j19516331393234_2_alg».proof.Proof.Spec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.SL.Sem
open Idealize.ShloMosaic.Pipeline (Dat)
open Idealize.ShloMosaic.ValueIdx
open Cert.KernelIdeal Cert.KernelIdeal.Gen Cert.Spec

variable (m : (ℓ : Loc nD τ sig) → Buf (Elt Ideal) ℓ) (ρ : Dev nD → PrngReg)

theorem hz : (![0, 0] : Fin 2 → Nat) = fun _ => 0 := funext fun a => by fin_cases a <;> rfl

/-- The body's stored value at an entry is the sign of the loaded entry. -/
theorem pay_apply (x0 : Vec Ideal S2048x2048 .f32) (j : S2048x2048.Idx) :
    k0_pay1 (F := Ideal) x0 j = pm (x0 j) := rfl

/-- Both windows' only block sits at the origin. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- What the point writes back is the sign array read through the output's block. -/
theorem flushed_eq (c : Dev nD) (t : Fin cfg0.N) :
    (dat0 (V0 m ρ) c).flushed 1 t
      = ((cfg0.win 1).blk t).view.read (Elt Ideal) (signs (m ((c : Thread nD τ).loc main_arg1))) := by
  show (cfg0.win 1).cut (grid0.coords t) ((dat0 (V0 m ρ) c).after 1 t) = _
  rw [after0_1]
  unfold out0_1
  rw [View.canon_unit_zero hz]
  simp only [View.ld_unit_zero (S := S2048x2048) hz]
  obtain ⟨e0, e1, e2, e3⟩ := idx_facts t
  funext j
  show k0_pay1 (F := Ideal) (iblk0 (V0 m ρ) c 0 t) j = pm (m ((c : Thread nD τ).loc main_arg1) (((cfg0.win 1).blk t).view.emb j))
  rw [pay_apply]
  show pm (m ((c : Thread nD τ).loc main_arg1) (((cfg0.win 0).blk t).view.emb j)) = pm (m ((c : Thread nD τ).loc main_arg1) (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 2048 + 1 * (j 0).val = win0_1.index t (0 : Fin 2) * 2048 + 1 * (j 0).val; rw [e0, e2]
    | ⟨1, _⟩ => show win0_0.index t (1 : Fin 2) * 2048 + 1 * (j 1).val = win0_1.index t (1 : Fin 2) * 2048 + 1 * (j 1).val; rw [e1, e3]
  rw [h0]

/-- An index of the output array is in the point's block iff each coordinate is in the block's range. -/
theorem mem_blk (t : Fin cfg0.N) (i : S2048x2048.Idx) :
    i ∈ ((cfg0.win 1).blk t).view.set ↔ ∀ a : Fin 2, win0_1.index t a * S2048x2048.size a ≤ (i a).val ∧ (i a).val < win0_1.index t a * S2048x2048.size a + S2048x2048.size a := by
  show i ∈ ((View.whole main_v0).slice (win0_1.rect t)).set ↔ _
  rw [View.set_slice_whole, Rect.mem_set_unit]
  exact Iff.rfl

/-- The output array after the region: the signs of the weight. -/
theorem final (c : Dev nD) :
    (dat0 (V0 m ρ) c).arrAt 1 cfg0.N = signs (m ((c : Thread nD τ).loc main_arg1)) :=
  (dat0 (V0 m ρ) c).arrAt_eq_of_cover 1 (signs (m ((c : Thread nD τ).loc main_arg1))) (fun t _ => flushed_eq m ρ c t) fun i => by
    refine ⟨t0_0, flush0_1 t0_0, ?_⟩
    rw [mem_blk]
    obtain ⟨-, -, e2, e3⟩ := idx_facts t0_0
    have h0 : (i 0).val < 2048 := (i 0).isLt
    have h1 : (i 1).val < 2048 := (i 1).isLt
    intro a
    match a with
    | ⟨0, _⟩ => show win0_1.index t0_0 (0 : Fin 2) * 2048 ≤ (i 0).val ∧ (i 0).val < win0_1.index t0_0 (0 : Fin 2) * 2048 + 2048; omega
    | ⟨1, _⟩ => show win0_1.index t0_0 (1 : Fin 2) * 2048 ≤ (i 1).val ∧ (i 1).val < win0_1.index t0_0 (1 : Fin 2) * 2048 + 2048; omega

end Cert.KernelIdeal.Region0

end
-- ==== Proof.Payload1.lean ====
/-
  The second body's arithmetic, read at one entry.

  The body holds a block `x0` of 512 rows of `x`, the whole sign array `x1` of the weight and the bias `x2` as one
  row. It replaces `x0` by its signs, contracts axis 1 of that with axis 1 of `x1` into a zero accumulator, and adds the
  bias row to every row. At entry `(p, q)` of the block that is the sum over `k` of `pm (x0 (p, k)) * x1 (q, k)`,
  plus `x2 (0, q)`: the matrix unit's product into zero is the plain sum on the extended reals, and the change of
  float format before it is the identity.
-/
import proofs.«154746_j19516331393234_2_alg».proof.Proof.Gen.KernelIdeal.Skeleton
import proofs.«154746_j19516331393234_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload1

open Idealize.ShloMosaic Idealize.ShloMosaic.ValueIdx
open Cert.KernelIdeal Cert.KernelIdeal.Gen Cert.Spec

/-- The left operand's row coordinate is the output's row. -/
theorem lhs_0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
/-- Its column coordinate is the contracted one. -/
theorem lhs_1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
/-- The right operand's row coordinate is the output's column. -/
theorem rhs_0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
/-- Its column coordinate is the contracted one. -/
theorem rhs_1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The product into a zero accumulator at `(p, q)`: row `p` of the left against row `q` of the right. -/
theorem dot_apply (l : FVec Ideal S512x2048 .bf16) (r : FVec Ideal S2048x2048 .bf16) (p : Fin 512) (q : Fin 2048) :
    matmul dot_S512x2048_S2048x2048_S512x2048_1_1_0_0_n_n none l r (constant (F := Ideal) S512x2048 .f32 0x00000000#32) (ix2 p q)
      = ∑ k : Fin 2048, l (ix2 p k) * r (ix2 q k) := by
  simp only [matmul]
  rw [Ideal.matmul_constant_zero_apply, ← Equiv.sum_comp (ValueIdx.contrEquiv1 dot_S512x2048_S2048x2048_S512x2048_1_1_0_0_n_n 2048 rfl rfl).symm]
  refine Finset.sum_congr rfl fun k _ => ?_
  have hk := ValueIdx.contrEquiv1_symm_val dot_S512x2048_S2048x2048_S512x2048_1_1_0_0_n_n 2048 rfl rfl k
  have el : dot_S512x2048_S2048x2048_S512x2048_1_1_0_0_n_n.lhsIdx (ix2 p q) ((ValueIdx.contrEquiv1 dot_S512x2048_S2048x2048_S512x2048_1_1_0_0_n_n 2048 rfl rfl).symm k) = ix2 p k := funext fun a => Fin.ext (by
    match a with
    | ⟨0, _⟩ => exact lhs_0 _ _
    | ⟨1, _⟩ => exact (lhs_1 _ _).trans hk)
  have er : dot_S512x2048_S2048x2048_S512x2048_1_1_0_0_n_n.rhsIdx (ix2 p q) ((ValueIdx.contrEquiv1 dot_S512x2048_S2048x2048_S512x2048_1_1_0_0_n_n 2048 rfl rfl).symm k) = ix2 q k := funext fun a => Fin.ext (by
    match a with
    | ⟨0, _⟩ => exact rhs_0 _ _
    | ⟨1, _⟩ => exact (rhs_1 _ _).trans hk)
  rw [el, er]

/-- The one-row bias broadcast to 512 rows, at `(p, q)`, is the row's entry `q`. -/
theorem bias_apply (x2 : Vec Ideal S1x2048 .f32) (h1 : S1x2048.ShapeCasts S1x2048) (h2 : S1x2048.Broadcasts S512x2048)
    (p : Fin 512) (q : Fin 2048) :
    broadcastTo S512x2048 (shapeCast S1x2048 x2 h1) h2 (ix2 p q) = x2 (ix2 0 q) := by
  rw [shapeCast_self]
  refine broadcastTo_apply _ _ _ (ix2 0 q) fun a => ?_
  match a with
  | ⟨0, _⟩ => show (0 : Nat) = if (1 : Nat) = 1 then 0 else p.val; rw [if_pos rfl]
  | ⟨1, _⟩ => show q.val = if (2048 : Nat) = 1 then 0 else q.val; rw [if_neg (by decide)]

/-- The stored value at `(p, q)`. -/
theorem pay_apply (x0 : Vec Ideal S512x2048 .f32) (x1 : Vec Ideal S2048x2048 .bf16) (x2 : Vec Ideal S1x2048 .f32)
    (p : Fin 512) (q : Fin 2048) :
    k1_pay1 (F := Ideal) x0 x1 x2 (ix2 p q) = (∑ k : Fin 2048, pm (x0 (ix2 p k)) * x1 (ix2 q k)) + x2 (ix2 0 q) := by
  unfold k1_pay1
  show matmul dot_S512x2048_S2048x2048_S512x2048_1_1_0_0_n_n none _ _ (constant (F := Ideal) S512x2048 .f32 0x00000000#32) (ix2 p q)
      + broadcastTo S512x2048 (shapeCast S1x2048 x2 _) _ (ix2 p q) = _
  rw [dot_apply, bias_apply, shapeCast_self]
  rfl

end Cert.KernelIdeal.Payload1

end
-- ==== Proof.Region1.lean ====
/-
  The second region: the result array.

  The region is entered with `x` as launched, with the weight's sign array (what the first region left) and with the
  bias reshaped to one row (what the host operation between the regions left). Its grid has 32 points; point `t`
  loads rows `512 t … 512 t + 511` of `x`, the whole sign array and the bias row, and writes back rows
  `512 t … 512 t + 511` of the result. By the body's arithmetic read at an entry, what point `t` writes back is
  `Spec.G` of the three arguments read through its block; the 32 blocks tile the [16384, 2048] result (row `r`
  belongs to point `r / 512`), so the result array ends holding `Spec.G`.
-/
import proofs.«154746_j19516331393234_2_alg».proof.Proof.Gen.KernelIdeal.Frame
import proofs.«154746_j19516331393234_2_alg».proof.Proof.Spec
import proofs.«154746_j19516331393234_2_alg».proof.Proof.Region0
import proofs.«154746_j19516331393234_2_alg».proof.Proof.Payload1
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Region1

open Idealize.ShloMosaic Idealize.ShloMosaic.TcCoe Idealize.SL.Sem Idealize.ShloMosaic.StableHlo
open Idealize.ShloMosaic.Pipeline (Dat)
open Idealize.ShloMosaic.ValueIdx
open Cert.KernelIdeal Cert.KernelIdeal.Gen Cert.Spec

variable (m : (ℓ : Loc nD τ sig) → Buf (Elt Ideal) ℓ) (ρ : Dev nD → PrngReg)

theorem hz : (![0, 0] : Fin 2 → Nat) = fun _ => 0 := funext fun a => by fin_cases a <;> rfl

/-! ## What the region is entered with -/

/-- `x` is as launched: neither the first region nor the host operation writes it. -/
theorem entry_x (c : Dev nD) : V2 m ρ c main_arg0 = m ((c : Thread nD τ).loc main_arg0) := by
  show StableHlo.after hostOps1 (W1 m ρ c) (Proc.devRef .tc main_arg0) = _
  after_results
  exact W1_of_ne m ρ c main_arg0 (by decide)

/-- The first region's output array holds the weight's signs, and the host operation leaves it alone. -/
theorem entry_w (c : Dev nD) : V2 m ρ c main_v0 = signs (m ((c : Thread nD τ).loc main_arg1)) := by
  show StableHlo.after hostOps1 (W1 m ρ c) (Proc.devRef .tc main_v0) = _
  after_results
  exact (W1_arr m ρ c 1).trans (Region0.final m ρ c)

/-- The host operation reshapes the bias to one row: entry `(0, q)` of the row is entry `q` of the bias. -/
theorem entry_b (c : Dev nD) (q : Fin 2048) :
    (V2 m ρ c main_v1 : S1x2048.Idx → EReal) (ix2 0 q) = (m ((c : Thread nD τ).loc main_arg2) : S2048.Idx → EReal) (ix1 q) := by
  have e : (V2 m ρ c main_v1 : S1x2048.Idx → EReal)
      = shapeCast S1x2048 (m ((c : Thread nD τ).loc main_arg2) : S2048.Idx → EReal) shapeCasts_S2048_S1x2048 := by
    show StableHlo.after hostOps1 (W1 m ρ c) (Proc.devRef .tc main_v1) = _
    after_results
    rw [W1_of_ne m ρ c main_arg2 (by decide)]
    rfl
  rw [e]
  refine (shapeCast_addUnit_apply ![2048] _ _ (ix2 0 q)).trans (congrArg _ (funext fun a => ?_))
  match a with
  | ⟨0, _⟩ => rfl

/-! ## The blocks -/

/-- Where each window's block sits at point `t`: the `x` and result windows move down by one block of rows per point, the
    other two stay at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of point `t`'s block is row `512 t + p` of the array. -/
def row (t : Fin cfg1.N) (p : Fin 512) : Fin 16384 :=
  ⟨t.val * 512 + p.val, by have h : t.val < 32 := Nat.lt_of_lt_of_eq t.isLt N_1; omega⟩

/-- The `x` block at point `t`, entry `(p, k)`. -/
theorem read_x (c : Dev nD) (t : Fin cfg1.N) (p : Fin 512) (k : Fin 2048) :
    (iblk1 (V2 m ρ) c 0 t : Vec Ideal S512x2048 .f32) (ix2 p k)
      = (m ((c : Thread nD τ).loc main_arg0) : S16384x2048.Idx → EReal) (ix2 (row t p) k) := by
  obtain ⟨e0, e1, -⟩ := idx_facts t
  show V2 m ρ c main_arg0 (((cfg1.win 0).blk t).view.emb (ix2 p k)) = _
  rw [entry_x]
  refine congrArg _ (funext fun a => Fin.ext ?_)
  match a with
  | ⟨0, _⟩ => show win1_0.index t (0 : Fin 2) * 512 + 1 * p.val = t.val * 512 + p.val; rw [e0]; omega
  | ⟨1, _⟩ => show win1_0.index t (1 : Fin 2) * 2048 + 1 * k.val = k.val; rw [e1]; omega

/-- The sign array's block is the whole array, at every point. -/
theorem read_w (c : Dev nD) (t : Fin cfg1.N) (q k : Fin 2048) :
    (iblk1 (V2 m ρ) c 1 t : Vec Ideal S2048x2048 .bf16) (ix2 q k)
      = pm ((m ((c : Thread nD τ).loc main_arg1) : S2048x2048.Idx → EReal) (ix2 q k)) := by
  obtain ⟨-, -, e2, e3, -⟩ := idx_facts t
  show V2 m ρ c main_v0 (((cfg1.win 1).blk t).view.emb (ix2 q k)) = _
  rw [entry_w]
  show pm (m ((c : Thread nD τ).loc main_arg1) (((cfg1.win 1).blk t).view.emb (ix2 q k))) = _
  refine congrArg (fun z => pm (m ((c : Thread nD τ).loc main_arg1) z)) (funext fun a => Fin.ext ?_)
  match a with
  | ⟨0, _⟩ => show win1_1.index t (0 : Fin 2) * 2048 + 1 * q.val = q.val; rw [e2]; omega
  | ⟨1, _⟩ => show win1_1.index t (1 : Fin 2) * 2048 + 1 * k.val = k.val; rw [e3]; omega

/-- The bias row's block is the whole row, at every point. -/
theorem read_b (c : Dev nD) (t : Fin cfg1.N) (q : Fin 2048) :
    (iblk1 (V2 m ρ) c 2 t : Vec Ideal S1x2048 .f32) (ix2 0 q)
      = (m ((c : Thread nD τ).loc main_arg2) : S2048.Idx → EReal) (ix1 q) := by
  obtain ⟨-, -, -, -, e4, e5, -⟩ := idx_facts t
  show V2 m ρ c main_v1 (((cfg1.win 2).blk t).view.emb (ix2 0 q)) = _
  have h : ((cfg1.win 2).blk t).view.emb (ix2 (0 : Fin 1) q) = ix2 (0 : Fin 1) q := by
    funext a; apply Fin.ext
    match a with
    | ⟨0, _⟩ => show win1_2.index t (0 : Fin 2) * 1 + 1 * 0 = 0; rw [e4]
    | ⟨1, _⟩ => show win1_2.index t (1 : Fin 2) * 2048 + 1 * q.val = q.val; rw [e5]; omega
  rw [h]
  exact entry_b m ρ c q

/-- WHAT POINT `t` WRITES BACK is `G` of the arguments read through its block. -/
theorem flushed_eq (c : Dev nD) (t : Fin cfg1.N) :
    (dat1 (V2 m ρ) c).flushed 3 t = ((cfg1.win 3).blk t).view.read (Elt Ideal)
      (G (m ((c : Thread nD τ).loc main_arg0)) (m ((c : Thread nD τ).loc main_arg1)) (m ((c : Thread nD τ).loc main_arg2))) := by
  show (cfg1.win 3).cut (grid1.coords t) ((dat1 (V2 m ρ) c).after 3 t) = _
  rw [after1_3]
  unfold out1_3
  rw [View.canon_unit_zero hz]
  simp only [View.ld_unit_zero (S := S512x2048) hz, View.ld_unit_zero (S := S2048x2048) hz, View.ld_unit_zero (S := S1x2048) hz]
  obtain ⟨-, -, -, -, -, -, e6, e7⟩ := idx_facts t
  funext j
  obtain ⟨p, q, rfl⟩ : ∃ (p : Fin 512) (q : Fin 2048), j = ix2 p q := ⟨j 0, j 1, eq_ix2 j⟩
  show k1_pay1 (F := Ideal) (iblk1 (V2 m ρ) c 0 t) (iblk1 (V2 m ρ) c 1 t) (iblk1 (V2 m ρ) c 2 t) (ix2 p q)
      = G (m ((c : Thread nD τ).loc main_arg0)) (m ((c : Thread nD τ).loc main_arg1)) (m ((c : Thread nD τ).loc main_arg2))
          (((cfg1.win 3).blk t).view.emb (ix2 p q))
  have hemb : ((cfg1.win 3).blk t).view.emb (ix2 p q) = ix2 (row t p) q := by
    funext a; apply Fin.ext
    match a with
    | ⟨0, _⟩ => show win1_3.index t (0 : Fin 2) * 512 + 1 * p.val = t.val * 512 + p.val; rw [e6]; omega
    | ⟨1, _⟩ => show win1_3.index t (1 : Fin 2) * 2048 + 1 * q.val = q.val; rw [e7]; omega
  rw [hemb, G_ix2, Payload1.pay_apply, read_b]
  refine congrArg (· + _) (Finset.sum_congr rfl fun k _ => ?_)
  rw [read_x, read_w]

/-! ## From the blocks to the array -/

/-- An index of the result is in point `t`'s block iff each coordinate is in the block's range. -/
theorem mem_blk (t : Fin cfg1.N) (i : S16384x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v2).slice (win1_3.rect t)).set ↔ _
  rw [View.set_slice_whole, Rect.mem_set_unit]
  exact Iff.rfl

/-- THE RESULT ARRAY after the region: `G` of the three arguments. -/
theorem final (c : Dev nD) :
    (dat1 (V2 m ρ) c).arrAt 3 cfg1.N
      = G (m ((c : Thread nD τ).loc main_arg0)) (m ((c : Thread nD τ).loc main_arg1)) (m ((c : Thread nD τ).loc main_arg2)) :=
  (dat1 (V2 m ρ) c).arrAt_eq_of_cover 3 _ (fun t _ => flushed_eq m ρ c t) fun i => by
    have h0 : (i 0).val < 16384 := (i 0).isLt
    have h1 : (i 1).val < 2048 := (i 1).isLt
    have hN : cfg1.N = 32 := N_1
    refine ⟨⟨(i 0).val / 512, by rw [hN]; omega⟩, flush1_3 _, ?_⟩
    rw [mem_blk]
    obtain ⟨-, -, -, -, -, -, e6, e7⟩ := idx_facts ⟨(i 0).val / 512, by rw [hN]; omega⟩
    intro a
    match a with
    | ⟨0, _⟩ =>
      show win1_3.index ⟨(i 0).val / 512, _⟩ (0 : Fin 2) * 512 ≤ (i 0).val ∧ (i 0).val < win1_3.index ⟨(i 0).val / 512, _⟩ (0 : Fin 2) * 512 + 512
      rw [e6]; show (i 0).val / 512 * 512 ≤ (i 0).val ∧ (i 0).val < (i 0).val / 512 * 512 + 512; omega
    | ⟨1, _⟩ =>
      show win1_3.index ⟨(i 0).val / 512, _⟩ (1 : Fin 2) * 2048 ≤ (i 1).val ∧ (i 1).val < win1_3.index ⟨(i 0).val / 512, _⟩ (1 : Fin 2) * 2048 + 2048
      rw [e7]; omega

end Cert.KernelIdeal.Region1

end
-- ==== Proof.lean ====
/-
  The kernel binarizes `x` [16384, 2048] and `weight` [2048, 2048] entry by entry — `1` where the entry is positive, `-1`
  elsewhere — and returns the binarized `x` times the transpose of the binarized weight, plus `bias` on every row:
  entry `(r, n)` of the result is `∑ k, pm (x (r, k)) * pm (weight (n, k)) + bias n` (`Spec.G`).

  The kernel does it in two regions: the first binarizes the whole weight in one block; the second, over 32 blocks of
  512 rows, binarizes its rows of `x`, contracts them with the binarized weight along both operands' last axis into a zero
  accumulator, and adds the bias row. The reference binarizes both operands, transposes the weight, contracts, and adds
  the broadcast bias. On the extended reals the changes of float format are the identity and both products are the
  same plain sum over `k` in the same order, so both results are `Spec.G` of the arguments, with no use of the
  precondition. The idealization rewrote nothing, so it preserves the kernel trivially; the three frames are the
  generated ones (the reference's is its run with the result dropped).
-/
import proofs.«154746_j19516331393234_2_alg».proof.Defs
import proofs.«154746_j19516331393234_2_alg».proof.Proof.Gen.Kernel
import proofs.«154746_j19516331393234_2_alg».proof.Proof.Gen.Kernel.Skeleton
import proofs.«154746_j19516331393234_2_alg».proof.Proof.Gen.Kernel.Launch
import proofs.«154746_j19516331393234_2_alg».proof.Proof.Gen.Kernel.Points
import proofs.«154746_j19516331393234_2_alg».proof.Proof.Gen.Kernel.Frame
import proofs.«154746_j19516331393234_2_alg».proof.Proof.Gen.KernelIdeal
import proofs.«154746_j19516331393234_2_alg».proof.Proof.Gen.KernelIdeal.Skeleton
import proofs.«154746_j19516331393234_2_alg».proof.Proof.Gen.KernelIdeal.Launch
import proofs.«154746_j19516331393234_2_alg».proof.Proof.Gen.KernelIdeal.Points
import proofs.«154746_j19516331393234_2_alg».proof.Proof.Gen.KernelIdeal.Frame
import proofs.«154746_j19516331393234_2_alg».proof.Proof.Gen.ReferenceIdeal
import proofs.«154746_j19516331393234_2_alg».proof.Proof.Gen.ReferenceIdeal.Run
import proofs.«154746_j19516331393234_2_alg».proof.Proof.Gen.ReferenceIdeal.Read
import proofs.«154746_j19516331393234_2_alg».proof.Proof.Gen.Pre_finite_inputs
import proofs.«154746_j19516331393234_2_alg».proof.Proof.Spec
import proofs.«154746_j19516331393234_2_alg».proof.Proof.RefSide
import proofs.«154746_j19516331393234_2_alg».proof.Proof.RunValue
import proofs.«154746_j19516331393234_2_alg».proof.Proof.Region0
import proofs.«154746_j19516331393234_2_alg».proof.Proof.Payload1
import proofs.«154746_j19516331393234_2_alg».proof.Proof.Region1
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with `Spec.G` of the arguments in their result arrays: the kernel's second region leaves it there
    block by block, and the reference's composed term is it entry by entry; the arguments agree by hypothesis. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Region1.final m ρ c), (h c).2⟩)
      (Cert.KernelIdeal.RunValue.run_out (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v10_eq, Cert.RefSide.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
